-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S512x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_

variable [Facts]

def fn {F : FTy → Type} [FloatOps F] (main_arg0 : FVec F S4x2048x4096 .f32) (main_arg1 : FVec F S11008x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  main_v8
-- ==== Kernel.lean ====
abbrev S4x2048x4096 : Shape := ⟨3, ![4, 2048, 4096]⟩
abbrev S11008x4096 : Shape := ⟨2, ![11008, 4096]⟩
abbrev S_ : Shape := ⟨0, ![]⟩
abbrev S11264x4096 : Shape := ⟨2, ![11264, 4096]⟩
abbrev S8192x4096 : Shape := ⟨2, ![8192, 4096]⟩
abbrev S8192x11264 : Shape := ⟨2, ![8192, 11264]⟩
abbrev S8192x11008 : Shape := ⟨2, ![8192, 11008]⟩
abbrev S4x2048x11008 : Shape := ⟨3, ![4, 2048, 11008]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 35
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i1⟩
  | .hbm, ⟨9, _⟩ => ⟨S_, .f32⟩
  | .hbm, ⟨10, _⟩ => ⟨S_, .f32⟩
  | .hbm, ⟨11, _⟩ => ⟨S11008x4096, .f32⟩
  | .hbm, ⟨12, _⟩ => ⟨S11008x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S11008x4096, .f32⟩
  | .hbm, ⟨17, _⟩ => ⟨S11008x4096, .f32⟩
  | .hbm, ⟨18, _⟩ => ⟨S_, .f32⟩
  | .hbm, ⟨19, _⟩ => ⟨S11008x4096, .f32⟩
  | .hbm, ⟨20, _⟩ => ⟨S11008x4096, .f32⟩
  | .hbm, ⟨21, _⟩ => ⟨S11008x4096, .f32⟩
  | .hbm, ⟨22, _⟩ => ⟨S_, .f32⟩
  | .hbm, ⟨23, _⟩ => ⟨S_, .i1⟩
  | .hbm, ⟨24, _⟩ => ⟨S_, .f32⟩
  | .hbm, ⟨25, _⟩ => ⟨S11008x4096, .f32⟩
  | .hbm, ⟨26, _⟩ => ⟨S11008x4096, .f32⟩
  | .hbm, ⟨27, _⟩ => ⟨S_, .i32⟩
  | .hbm, ⟨28, _⟩ => ⟨S_, .f32⟩
  | .hbm, ⟨29, _⟩ => ⟨S11264x4096, .f32⟩
  | .hbm, ⟨30, _⟩ => ⟨S11264x4096, .bf16⟩
  | .hbm, ⟨31, _⟩ => ⟨S8192x4096, .f32⟩
  | .hbm, ⟨32, _⟩ => ⟨S8192x11264, .f32⟩
  | .hbm, ⟨33, _⟩ => ⟨S8192x11008, .f32⟩
  | .hbm, ⟨34, _⟩ => ⟨S4x2048x11008, .f32⟩
  | .local _ .vmem, ⟨0, _⟩ => ⟨S512x4096, .f32⟩
  | .local _ .vmem, ⟨1, _⟩ => ⟨S512x4096, .f32⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_cst_0 : Ref sig .tc := ⟨.hbm, 5, rfl⟩
abbrev main_call0_v2 : Ref sig .tc := ⟨.hbm, 6, rfl⟩
abbrev main_call0_cst_1 : Ref sig .tc := ⟨.hbm, 7, rfl⟩
abbrev main_call0_v3 : Ref sig .tc := ⟨.hbm, 8, rfl⟩
abbrev main_call0_cst_2 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_3 : Ref sig .tc := ⟨.hbm, 13, rfl⟩
abbrev main_call0_cst_4 : Ref sig .tc := ⟨.hbm, 14, rfl⟩
abbrev main_call0_call1_v0 : Ref sig .tc := ⟨.hbm, 15, rfl⟩
abbrev main_call0_call1_v1 : Ref sig .tc := ⟨.hbm, 16, rfl⟩
abbrev main_call0_call1_v2 : Ref sig .tc := ⟨.hbm, 17, rfl⟩
abbrev main_call0_call1_v3 : Ref sig .tc := ⟨.hbm, 18, rfl⟩
abbrev main_call0_call1_v4 : Ref sig .tc := ⟨.hbm, 19, rfl⟩
abbrev main_call0_v7 : Ref sig .tc := ⟨.hbm, 20, rfl⟩
abbrev main_call0_v8 : Ref sig .tc := ⟨.hbm, 21, rfl⟩
abbrev main_call0_cst_5 : Ref sig .tc := ⟨.hbm, 22, rfl⟩
abbrev main_call0_v9 : Ref sig .tc := ⟨.hbm, 23, rfl⟩
abbrev main_call0_cst_6 : Ref sig .tc := ⟨.hbm, 24, rfl⟩
abbrev main_call0_v10 : Ref sig .tc := ⟨.hbm, 25, rfl⟩
abbrev main_call0_v11 : Ref sig .tc := ⟨.hbm, 26, rfl⟩
abbrev main_call0_c : Ref sig .tc := ⟨.hbm, 27, rfl⟩
abbrev main_call0_call4_v0 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v0 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S11008x4096_S_d0_1 : S11008x4096.ReducesTo [0, 1] S_
  h_S_ : 0 < S_.numel
  bcast_S_S11008x4096 : S_.BroadcastsInDim S11008x4096 (![] : Fin 0 → Fin S11008x4096.rank)
  pads_S11008x4096_S11264x4096_02560_000 : S11008x4096.Pads (![0, 0] : Fin 2 → Nat) ![256, 0] ![0, 0] S11264x4096
  bitsLt_bf16_f32 : FTy.bits .bf16 < FTy.bits .f32
  shapeCasts_S4x2048x4096_S8192x4096 : S4x2048x4096.ShapeCasts S8192x4096
  slices_S8192x11264_S8192x11008_0_0 : S8192x11264.Slices ![0, 0] S8192x11008
  shapeCasts_S8192x11008_S4x2048x11008 : S8192x11008.ShapeCasts S4x2048x11008
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S11264x4096.size a
  hwx0_1 : ∀ i : grid0.Coords, EltTy.bits .bf16 = 32 ∨ (Rect.block (s := S11264x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x11264.size a
  hwx0_2 : ∀ i : grid0.Coords, EltTy.bits .f32 = 32 ∨ (Rect.block (s := S8192x11264) S512x1024.size (cc0_transform_2 i) (hinb0_2 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_call0_v14) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v15) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S_ : Shape := ⟨0, ![]⟩
abbrev S4x2048x11008 : Shape := ⟨3, ![4, 2048, 11008]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i1⟩
  | .hbm, ⟨9, _⟩ => ⟨S_, .f32⟩
  | .hbm, ⟨10, _⟩ => ⟨S_, .f32⟩
  | .hbm, ⟨11, _⟩ => ⟨S11008x4096, .f32⟩
  | .hbm, ⟨12, _⟩ => ⟨S11008x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S11008x4096, .f32⟩
  | .hbm, ⟨17, _⟩ => ⟨S11008x4096, .f32⟩
  | .hbm, ⟨18, _⟩ => ⟨S_, .f32⟩
  | .hbm, ⟨19, _⟩ => ⟨S11008x4096, .f32⟩
  | .hbm, ⟨20, _⟩ => ⟨S11008x4096, .f32⟩
  | .hbm, ⟨21, _⟩ => ⟨S11008x4096, .f32⟩
  | .hbm, ⟨22, _⟩ => ⟨S_, .f32⟩
  | .hbm, ⟨23, _⟩ => ⟨S_, .i1⟩
  | .hbm, ⟨24, _⟩ => ⟨S_, .f32⟩
  | .hbm, ⟨25, _⟩ => ⟨S11008x4096, .f32⟩
  | .hbm, ⟨26, _⟩ => ⟨S11008x4096, .f32⟩
  | .hbm, ⟨27, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_cst_4 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_cst_5 : Ref sig .tc := ⟨.hbm, 22, rfl⟩
abbrev main_v9 : Ref sig .tc := ⟨.hbm, 23, rfl⟩
abbrev main_cst_6 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩

abbrev nD : Nat := 1
abbrev τ : Topo := Topo.v7x

variable {F : FTy → Type} [FloatOps F]

class Facts₀ : Prop where
  reducesTo_S11008x4096_S_d0_1 : S11008x4096.ReducesTo [0, 1] S_
  h_S_ : 0 < S_.numel
  bcast_S_S11008x4096 : S_.BroadcastsInDim S11008x4096 (![] : Fin 0 → Fin S11008x4096.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.LibRowOps.lean ====
/-
  Rank-2 blocks read at an index: three steps that a row-wise kernel body takes on a `[1, 1, a, b]` staging block.

  * `shapeCast_11ab_ab_apply` / `shapeCast_ab_11ab_apply`: dropping or adding the two leading unit axes keeps the entry
    at `(p, c)`;
  * `multiReduction_maximumf_lanes_apply`: a lane maximum of an `[a, b]` vector, at the ideal values, reads at row `p`
    the fold of `max` from the accumulator's value over the entries `(p, k)`, `k : Fin b`;
  * `matmul_zero_rows_ix2`: a product `[M, K] × [N, K]` contracting the second axis of BOTH operands (rows against rows,
    `A · Bᵀ`), accumulated into the zero splat, reads at `(p, q)` the sum over `k : Fin K` of `lhs (p, k) * rhs (q, k)`.
  All for any extents.
-/
import Idealize.ShloMosaic.Lib.Pipeline.Value
import Idealize.ShloMosaic.Lib.ValueIdx
import Idealize.ShloMosaic.PureOps.Ideal.Laws

noncomputable section

open scoped BigOperators

namespace Cert.LibRowOps

open Idealize.ShloMosaic Idealize.ShloMosaic.ValueIdx

variable {α : Type}

/-- A `[1, 1, a, b]` block read as the matrix `[a, b]`: entry `(p, c)` is the block's `(0, 0, p, c)`. -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) :=
  shapeCast_apply x h _ _ (by
    rw [Shape.rowMajor_val_four, Shape.rowMajor_val_two]
    show ((0 * 1 + 0) * a + p.val) * b + c.val = p.val * b + c.val
    simp)

/-- A matrix `[a, b]` laid out as the block `[1, 1, a, b]`: entry `(u, w, p, c)` is the matrix's `(p, c)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (p : Fin a) (c : Fin b) :
    shapeCast ⟨4, ![1, 1, a, b]⟩ x h (ix4 u w p c) = x (ix2 p c) :=
  shapeCast_apply x h _ _ (by
    have hu : u.val = 0 := by omega
    have hw : w.val = 0 := by omega
    rw [Shape.rowMajor_val_four, Shape.rowMajor_val_two]
    show p.val * b + c.val = ((u.val * 1 + w.val) * a + p.val) * b + c.val
    rw [hu, hw]; simp)

/-- The maximum of an `[a, b]` vector along its lanes, read at row `p`: the fold of `max`, from the accumulator's value,
    over the entries `(p, k)`. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans (by
    have e : (src ∘ h.lift (ix1 p)) = fun k : Fin b => src (ix2 p k) :=
      funext fun k => congrArg src (funext fun ax => Fin.ext (by
        match ax with
        | ⟨0, _⟩ => rfl
        | ⟨1, _⟩ => rfl))
    rw [e]; rfl)

section RowsByRows
variable {M K N : Nat} (D : DotDims ⟨2, ![M, K]⟩ ⟨2, ![N, K]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With the right operand's ROWS its one free axis, the right operand index has the result's column as its row. -/
theorem rhsIdx_val_row (hlb : D.lhsBatch = []) (hln : D.lhsNonContracting = [0]) (hrb : D.rhsBatch = [])
    (hrn : D.rhsNonContracting = [0])
    (j : (⟨2, ![M, N]⟩ : Shape).Idx) (k : D.contr.Idx) : (D.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- Rows against rows: `[M, K] × [N, K]` contracting both second axes into the zero accumulator, read at `(p, q)`:
    `∑ₖ lhs (p, k) * rhs (q, k)`. -/
theorem matmul_zero_rows_ix2 (hlc : D.lhsContracting = [1]) (hrc : D.rhsContracting = [1])
    (hlb : D.lhsBatch = []) (hln : D.lhsNonContracting = [0]) (hrb : D.rhsBatch = []) (hrn : D.rhsNonContracting = [0])
    {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 q k := funext fun a => Fin.ext (by
    match a with
    | ⟨0, _⟩ => exact rhsIdx_val_row D hlb hln hrb hrn _ _
    | ⟨1, _⟩ => exact (D.rhsIdx_val_of_single hrc _ _).trans hk)
  rw [el, er]

end RowsByRows

end Cert.LibRowOps

end
-- ==== Proof.Spec.lean ====
/-
  The specification of the ternary linear layer, and the one law on the extended reals that its kernel needs.

  With `x` the activations `[4, 2048, 4096]` and `W` a weight matrix `[11008, 4096]` (the quantized weight: its
  entries are never opened here), the layer's result at `(b, s, o)` is the row `x (b, s, ·)` against the row
  `W (o, ·)`:  `∑ₖ x (b, s, k) * W (o, k)`.

  The kernel feeds the product twice, once with `x` and once with the residual `x - x` of `x` against itself, and
  adds the two passes. For a REAL `x` the residual is `0`, `0 * w = 0` for every extended real `w`, and the second
  pass vanishes. (For an infinite `x` the residual is `-∞`: the law needs every entry of `x` to be a real number.)
-/
import Idealize.ShloMosaic.PureOps.Ideal
import Idealize.ShloMosaic.Lib.ValueIdx

noncomputable section

open scoped BigOperators

namespace Cert.TernaryLinear

open Idealize.ShloMosaic Idealize.ShloMosaic.ValueIdx

/-- Rows against rows: entry `(b, s, o)` is `∑ₖ x (b, s, k) * W (o, k)`. -/
def rowsByRows (x : (⟨3, ![4, 2048, 4096]⟩ : Shape).Idx → EReal) (W : (⟨2, ![11008, 4096]⟩ : Shape).Idx → EReal) :
    (⟨3, ![4, 2048, 11008]⟩ : Shape).Idx → EReal :=
  fun i => ∑ k : Fin 4096, x (ix3 (i 0) (i 1) k) * W (ix2 (i 2) k)

/-- A real number minus itself is zero on the extended reals. -/
theorem coe_sub_self (r : ℝ) : ((r : EReal) - (r : EReal)) = 0 := by
  rw [← EReal.coe_sub, sub_self, EReal.coe_zero]

/-- The two passes are one: with every `a k` real, `∑ₖ a k * b k + ∑ₖ (a k - a k) * b k = ∑ₖ a k * b k`, whatever the
    `b k` are. -/
theorem two_pass {K : ℕ} (a b : Fin K → EReal) (ha : ∀ k, ∃ r : ℝ, a k = (r : EReal)) :
    ∑ k, a k * b k + ∑ k, (a k - a k) * b k = ∑ k, a k * b k := by
  have h0 : ∀ k, (a k - a k) * b k = 0 := fun k => by
    obtain ⟨r, hr⟩ := ha k
    rw [hr, coe_sub_self, zero_mul]
  rw [Finset.sum_congr rfl (fun k _ => h0 k), Finset.sum_const_zero, add_zero]

end Cert.TernaryLinear

end
-- ==== Proof.Body.lean ====
/-
  The kernel body's one stored value, read at an index.

  On a block `x0` of 512 rows of the activations and a block `x1` of 1024 rows of the weight, the body stores
  `x0 · x1ᵀ + (x0 - x0) · x1ᵀ` (both products into a zero accumulator; the changes of float format are the identity at
  the ideal values). With every entry of `x0` real the second product is zero, so entry `(p, q)` is
  `∑ₖ x0 (p, k) * x1 (q, k)`.
-/
import proofs.«173553_j68573447848569_2_alg».proof.Proof.Gen.KernelIdeal.Skeleton
import proofs.«173553_j68573447848569_2_alg».proof.Proof.LibRowOps
import proofs.«173553_j68573447848569_2_alg».proof.Proof.Spec

noncomputable section

open scoped BigOperators

namespace Cert.TernaryLinear

open Cert.KernelIdeal Cert.KernelIdeal.Gen Idealize.ShloMosaic Idealize.ShloMosaic.ValueIdx

/-- Entry `(p, q)` of what the body stores is row `p` of the activations' block against row `q` of the weight's. -/
theorem body_apply (x0 : Vec Ideal S512x4096 .f32) (x1 : Vec Ideal S1024x4096 .bf16)
    (hfin : ∀ i, ∃ r : ℝ, (x0 i : EReal) = (r : EReal)) (p : Fin 512) (q : Fin 1024) :
    k0_pay1 (F := Ideal) x0 x1 (ix2 p q) = ∑ k : Fin 4096, (x0 (ix2 p k) : EReal) * (x1 (ix2 q k) : EReal) := by
  unfold k0_pay1
  simp only [shapeCast_self, Idealize.ShloMosaic.matmul]
  rw [addf_apply,
    Cert.LibRowOps.matmul_zero_rows_ix2 (M := 512) (K := 4096) (N := 1024) dot_S512x4096_S1024x4096_S512x1024_1_1_0_0_n_n rfl rfl rfl rfl rfl rfl,
    Cert.LibRowOps.matmul_zero_rows_ix2 (M := 512) (K := 4096) (N := 1024) dot_S512x4096_S1024x4096_S512x1024_1_1_0_0_n_n rfl rfl rfl rfl rfl rfl]
  simp only [truncf_apply, subf_apply]
  exact two_pass (fun k => x0 (ix2 p k)) (fun k => x1 (ix2 q k)) (fun k => hfin _)

/-- The same at any index `j` of the output block: row `j 0` of the activations' block against row `j 1` of the weight's. -/
theorem body_at (x0 : Vec Ideal S512x4096 .f32) (x1 : Vec Ideal S1024x4096 .bf16)
    (hfin : ∀ i, ∃ r : ℝ, (x0 i : EReal) = (r : EReal)) (j : S512x1024.Idx) :
    k0_pay1 (F := Ideal) x0 x1 j = ∑ k : Fin 4096, (x0 (ix2 (j 0) k) : EReal) * (x1 (ix2 (j 1) k) : EReal) := by
  obtain ⟨p, q, rfl⟩ : ∃ (p : Fin 512) (q : Fin 1024), j = ix2 p q := ⟨j 0, j 1, eq_ix2 j⟩
  exact body_apply x0 x1 hfin p q

end Cert.TernaryLinear

end
-- ==== Proof.Blocks.lean ====
/-
  From blocks to the array: what the region leaves in its output array.

  The grid has 11 × 16 points `(j, i)`. At a point the body sees rows `512 i … 512 i + 511` of the activations `X`
  (`[8192, 4096]`), rows `1024 j … 1024 j + 1023` of the padded weight `Wp` (`[11264, 4096]`), and writes block `(i, j)`
  of the output `[8192, 11264]`. Entry `(p, q)` of that block is row `p` of the one against row `q` of the other, that
  is entry `(512 i + p, 1024 j + q)` of ONE whole-array function, `paddedProduct X Wp (r, n) = ∑ₖ X (r, k) * Wp (n, k)`.
  The 176 blocks tile the output, so the array ends holding `paddedProduct X Wp` — provided every entry of `X` is a
  real number, which the body's two passes need.
-/
import proofs.«173553_j68573447848569_2_alg».proof.Proof.Gen.KernelIdeal.Frame
import proofs.«173553_j68573447848569_2_alg».proof.Proof.Body
import Idealize.ShloMosaic.Lib.Pipeline.Value

set_option maxRecDepth 16384

noncomputable section

open scoped BigOperators

namespace Cert.TernaryLinear

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Rows of `X` against rows of `Wp`, over the whole padded output. -/
def paddedProduct (X : S8192x4096.Idx → EReal) (Wp : S11264x4096.Idx → EReal) : S8192x11264.Idx → EReal :=
  fun i => ∑ k : Fin 4096, X (ix2 (i 0) k) * Wp (ix2 (i 1) k)

/-- A product of two entries moves with its two indices. -/
theorem mul_congr_idx {A B : Type} (f : A → EReal) (g : B → EReal) {a a' : A} {b b' : B} (ha : a = a') (hb : b = b') :
    f a * g b = f a' * g b' := by rw [ha, hb]

theorem zeros2 : (![0, 0] : Fin 2 → Nat) = fun _ => 0 := funext fun a => by fin_cases a <;> rfl

/-- The three index maps, decided over the 176 points: the activations' block row is the output's block row, the
    weight's block row is the output's block column, neither input is cut along the contracted axis, and the output's
    block indices stay in their ranges. -/
theorem index_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15 ∧ win0_2.index t (1 : Fin 2) ≤ 10 :=
  (by decide +kernel : ∀ t : Fin grid0.N, _)

/-- Every block of the output is some point's. -/
theorem index_onto : ∀ (q0 : Fin 16) (q1 : Fin 11), ∃ t : Fin cfg0.N, win0_2.index t = ![q0.val, q1.val] :=
  (by decide +kernel : ∀ (q0 : Fin 16) (q1 : Fin 11), ∃ t : Fin grid0.N, win0_2.index t = ![q0.val, q1.val])

/-- What point `t` writes back is block `t` of the whole-array product of the two arrays the region finds. -/
theorem flushed_eq (c : Dev nD)
    (hfin : ∀ i, ∃ r : ℝ, ((V m c main_call0_v14 : S8192x4096.Idx → EReal) i) = (r : EReal)) (t : Fin cfg0.N) :
    (dats m 0 c).flushed 2 t = ((cfg0.win 2).blk t).view.read (Elt Ideal)
      (paddedProduct (V m c main_call0_v14) (V m c main_call0_v13)) := by
  show (cfg0.win 2).cut (grid0.coords t) ((dats m 0 c).after 2 t) = _
  rw [after0_2]
  unfold out0_2
  rw [View.canon_unit_zero zeros2]
  simp only [View.ld_unit_zero (S := S512x4096) zeros2, View.ld_unit_zero (S := S1024x4096) zeros2]
  obtain ⟨e0, e1, e2, e3, -, -⟩ := index_facts t
  funext j
  show k0_pay1 (F := Ideal) (iblk m c 0 t) (iblk m c 1 t) j
    = paddedProduct (V m c main_call0_v14) (V m c main_call0_v13) (((cfg0.win 2).blk t).view.emb j)
  refine (body_at (iblk m c 0 t) (iblk m c 1 t) (fun i => hfin _) j).trans ?_
  unfold paddedProduct
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * k.val = k.val; omega
  have h1 : ((cfg0.win 1).blk t).view.emb (ix2 (j 1) k) = ix2 ((((cfg0.win 2).blk t).view.emb j) 1) k := by
    funext a; apply Fin.ext
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 4096 + 1 * k.val = k.val; omega
  exact mul_congr_idx (V m c main_call0_v14) (V m c main_call0_v13) h0 h1

/-- An index of the output is in point `t`'s block iff each coordinate is in the block's range on its axis. -/
theorem mem_block (t : Fin cfg0.N) (i : S8192x11264.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_call0_v15).slice (win0_2.rect t)).set ↔ _
  rw [View.set_slice_whole, Rect.mem_set_unit]
  exact Iff.rfl

/-- The blocks tile the output: index `(r, n)` is in the block of the point with block row `r / 512` and block column
    `n / 1024`. -/
theorem covered (i : S8192x11264.Idx) :
    ∃ t : Fin cfg0.N, (cfg0.win 2).flush t = true ∧ i ∈ ((cfg0.win 2).blk t).view.set := by
  have hi0 : (i 0).val < 8192 := (i 0).isLt
  have hi1 : (i 1).val < 11264 := (i 1).isLt
  obtain ⟨t, ht⟩ := index_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The output array after the region: the whole-array product of the two arrays the region found. -/
theorem region_result (c : Dev nD)
    (hfin : ∀ i, ∃ r : ℝ, ((V m c main_call0_v14 : S8192x4096.Idx → EReal) i) = (r : EReal)) :
    (dats m 0 c).arrAt 2 cfg0.N = paddedProduct (V m c main_call0_v14) (V m c main_call0_v13) :=
  (dats m 0 c).arrAt_eq_of_cover 2 _ (fun t _ => flushed_eq m c hfin t) covered

end Cert.TernaryLinear

end
-- ==== Proof.HostSide.lean ====
/-
  What the region finds in its two input arrays, and what the lines after it make of its output array.

  Before the region the host computes, from the raw weight, the quantized weight (the same chain of operations, with the
  same constants, as the reference's: it is named here by the reference's own stage `val_main_v11` and never opened),
  pads it with 256 zero rows to `[11264, 4096]` and changes its float format; and it lays the activations
  `[4, 2048, 4096]` out as the matrix `[8192, 4096]`. After the region it keeps the first 11008 columns of the
  output `[8192, 11264]` and lays the rows out as `[4, 2048, ·]` again.
-/
import proofs.«173553_j68573447848569_2_alg».proof.Proof.Gen.KernelIdeal.Frame
import proofs.«173553_j68573447848569_2_alg».proof.Proof.Gen.ReferenceIdeal.Read
import Idealize.ShloMosaic.Lib.StableHlo.Run
import Idealize.ShloMosaic.PureOps.Ideal

noncomputable section

namespace Cert.TernaryLinear

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The activations as the region finds them: the argument laid out as a matrix of 8192 rows. -/
theorem found_x (c : Dev nD) :
    (V m c main_call0_v14 : S8192x4096.Idx → EReal)
      = shapeCast S8192x4096 (m ((c : Thread nD τ).loc main_arg0)) shapeCasts_S4x2048x4096_S8192x4096 := by
  show StableHlo.after hostOps0 (fun b => m (c, b)) (Proc.devRef .tc main_call0_v14) = _
  after_results
  rfl

set_option maxHeartbeats 1000000 in
/-- The host operations before the region, read at the weight array's reference: the quantized weight, padded and
    re-formatted. -/
theorem weight_after (c : Dev nD) :
    StableHlo.after (hostOps0 (F := Ideal)) (fun b => m (c, b)) (Proc.devRef .tc main_call0_v13)
      = (truncf (F := Ideal) .bf16 (pad S11264x4096 ![0, 0] ![256, 0] ![0, 0]
          (Cert.ReferenceIdeal.Read.val_main_v11 (F := Ideal) (m ((c : Thread nD τ).loc main_arg1)))
          (sitofp (F := Ideal) .f32 (constantI S_ 32 0#32)) pads_S11008x4096_S11264x4096_02560_000 h_S_) bitsLt_bf16_f32 :
          FVec Ideal S11264x4096 .bf16) := by
  after_results
  rfl

/-- The weight as the region finds it. -/
theorem found_w (c : Dev nD) :
    V m c main_call0_v13
      = (truncf (F := Ideal) .bf16 (pad S11264x4096 ![0, 0] ![256, 0] ![0, 0]
          (Cert.ReferenceIdeal.Read.val_main_v11 (F := Ideal) (m ((c : Thread nD τ).loc main_arg1)))
          (sitofp (F := Ideal) .f32 (constantI S_ 32 0#32)) pads_S11008x4096_S11264x4096_02560_000 h_S_) bitsLt_bf16_f32 :
          FVec Ideal S11264x4096 .bf16) := by
  refine Eq.trans ?_ (weight_after m c)
  dsimp only [V, V0]
  simp only [List.flatten_cons, List.flatten_nil, List.append_nil]

/-- The program's result after the lines that follow the region: the first 11008 columns of the region's output array,
    its 8192 rows laid out as `[4, 2048, ·]`. -/
theorem tail_eq (c : Dev nD) :
    Pipeline.afterTail₀ cfgs (dats m) 0 (V0 m) [hostOps1] c main_v0
      = (shapeCast S4x2048x11008 (extractStridedSlice S8192x11008 ![0, 0]
          ((dats m 0 c).arrAt 2 cfg0.N : S8192x11264.Idx → EReal) slices_S8192x11264_S8192x11008_0_0)
          shapeCasts_S8192x11008_S4x2048x11008 : S4x2048x11008.Idx → EReal) := by
  have hw : Pipeline.withArrays spec0 c (V0 m c) (fun w => (dats m 0 c).arrAt w cfg0.N) (Proc.devRef .tc (Pipeline.arrRef spec0 2))
      = (dats m 0 c).arrAt 2 cfg0.N :=
    Pipeline.withArrays_arr spec0 launch0.win.arr_inj c (V0 m c) (fun w => (dats m 0 c).arrAt w cfg0.N) 2
  unfold Pipeline.afterTail₀
  show StableHlo.after hostOps1 _ (Proc.devRef .tc main_v0) = _
  after_results
  rw [← hw]
  rfl

end Cert.TernaryLinear

end
-- ==== Proof.ReadBack.lean ====
/-
  The kernel's result, index by index.

  Entry `(b, s, o)` of the result is entry `(2048 b + s, o)` of the padded product `[8192, 11264]` (the column `o` is
  below 11008, so it survives the slice). That entry is row `2048 b + s` of the activations' matrix — which is
  `x (b, s, ·)` — against row `o` of the padded weight — which, `o` being a row of the unpadded weight, is `W (o, ·)`;
  the zero rows of the padding are never read. So the result is `∑ₖ x (b, s, k) * W (o, k)`.
-/
import proofs.«173553_j68573447848569_2_alg».proof.Proof.Blocks
import Idealize.ShloMosaic.Lib.KernelVsHost

noncomputable section

open scoped BigOperators

namespace Cert.TernaryLinear

open Cert.KernelIdeal Idealize.ShloMosaic Idealize.ShloMosaic.ValueIdx

/-- Slice and reshape of the padded product of the reshaped activations with the padded weight is rows of the
    activations against rows of the weight. -/
theorem read_back (x : FVec Ideal S4x2048x4096 .f32) (W : FVec Ideal S11008x4096 .f32) (z : FVec Ideal S_ .f32)
    (h1 : S4x2048x4096.ShapeCasts S8192x4096) (hp : S11008x4096.Pads (![0, 0] : Fin 2 → Nat) ![256, 0] ![0, 0] S11264x4096)
    (hz : 0 < S_.numel) (hb : FTy.bits .bf16 < FTy.bits .f32) (hs : S8192x11264.Slices ![0, 0] S8192x11008)
    (h2 : S8192x11008.ShapeCasts S4x2048x11008) :
    shapeCast S4x2048x11008 (extractStridedSlice S8192x11008 ![0, 0]
        (paddedProduct (shapeCast S8192x4096 x h1) (truncf (F := Ideal) .bf16 (pad S11264x4096 ![0, 0] ![256, 0] ![0, 0] W z hp hz) hb))
        hs) h2
      = rowsByRows x W := by
  funext i
  obtain ⟨b, s, o, rfl⟩ : ∃ (b : Fin 4) (s : Fin 2048) (o : Fin 11008), i = ix3 b s o := ⟨i 0, i 1, i 2, eq_ix3 i⟩
  have hb4 : b.val < 4 := b.isLt
  have hs2 : s.val < 2048 := s.isLt
  have ho : o.val < 11008 := o.isLt
  let r : Fin 8192 := ⟨b.val * 2048 + s.val, by omega⟩
  let o' : Fin 11264 := ⟨o.val, by omega⟩
  refine (shapeCast_apply _ h2 (ix3 b s o) (ix2 r o) ?_).trans ?_
  · rw [Shape.rowMajor_val_two, Shape.rowMajor_val_three]; rfl
  refine (extractStridedSlice_apply ![0, 0] _ hs (ix2 r o) (ix2 r o') (fun a => ?_)).trans ?_
  · match a with
    | ⟨0, _⟩ => show r.val = 0 + r.val; omega
    | ⟨1, _⟩ => show o.val = 0 + o.val; omega
  unfold paddedProduct rowsByRows
  refine Finset.sum_congr rfl fun k _ => ?_
  have hx : shapeCast S8192x4096 x h1 (ix2 r k) = x (ix3 b s k) :=
    shapeCast_apply x h1 (ix2 r k) (ix3 b s k) (by rw [Shape.rowMajor_val_three, Shape.rowMajor_val_two]; rfl)
  have hw : truncf (F := Ideal) .bf16 (pad S11264x4096 ![0, 0] ![256, 0] ![0, 0] W z hp hz) hb (ix2 o' k) = W (ix2 o k) := by
    show pad S11264x4096 ![0, 0] ![256, 0] ![0, 0] W z hp hz (ix2 o' k) = W (ix2 o k)
    refine pad_apply_of_inside ![0, 0] ![256, 0] ![0, 0] W z hp hz (ix2 o' k) (ix2 o k) (fun a => ?_)
    match a with
    | ⟨0, _⟩ => show o.val = 0 + o.val * (0 + 1); omega
    | ⟨1, _⟩ => show k.val = 0 + k.val * (0 + 1); omega
  show shapeCast S8192x4096 x h1 (ix2 r k)
      * truncf (F := Ideal) .bf16 (pad S11264x4096 ![0, 0] ![256, 0] ![0, 0] W z hp hz) hb (ix2 o' k)
    = x (ix3 b s k) * W (ix2 o k)
  rw [hx, hw]

end Cert.TernaryLinear

end
-- ==== Proof.Finite.lean ====
/-
  From the precondition to real entries.

  The precondition says that `|x| < +∞` holds at every entry of both inputs: it is the conjunction of two `all`s, each
  an `and`-reduction of the comparisons `|x| < +∞` over every index. An extended real `y` with `max y (-y) < ⊤` is
  neither `⊤` nor `⊥`, so it is a real number. Only the activations' half is needed.
-/
import proofs.«173553_j68573447848569_2_alg».proof.Pre_finite_inputs
import Idealize.ShloMosaic.PureOps.Ideal
import Idealize.ShloMosaic.Lib.ValueIdx
import Idealize.ShloMosaic.Lib.ReduceAll

noncomputable section

namespace Cert.TernaryLinear

open Idealize.ShloMosaic Idealize.ShloMosaic.ValueIdx

/-- The scalar shape has one index. -/
instance subsingleton_scalar_idx : Subsingleton Cert.Pre_finite_inputs.S_.Idx := ⟨fun _ _ => funext fun d => d.elim0⟩

/-- An extended real whose absolute value is below `+∞` (the f32 pattern `0x7F800000`) is a real number. -/
theorem real_of_abs_lt_inf (y : EReal) (h : Ideal.cmp .olt (max y (-y)) (Ideal.ofBits .f32 0x7F800000#32) = 1#1) :
    ∃ r : ℝ, y = (r : EReal) := by
  have htop : Ideal.ofBits .f32 0x7F800000#32 = ⊤ := by simp [Ideal.ofBits, Ideal.ieee]
  rw [htop] at h
  unfold Ideal.cmp at h
  induction y using EReal.rec with
  | bot => simp at h
  | coe r => exact ⟨r, rfl⟩
  | top => simp at h

/-- Under the precondition every entry of the first input is a real number. -/
theorem real_of_pre [Cert.Pre_finite_inputs.Facts] (x : FVec Ideal Cert.Pre_finite_inputs.S4x2048x4096 .f32)
    (w : FVec Ideal Cert.Pre_finite_inputs.S11008x4096 .f32)
    (h : Cert.Pre_finite_inputs.fn (F := Ideal) x w = fun _ => 1#1) (i : Cert.Pre_finite_inputs.S4x2048x4096.Idx) :
    ∃ r : ℝ, (x i : EReal) = (r : EReal) := by
  have h0 := congrFun h ValueIdx.ix0
  dsimp only [Cert.Pre_finite_inputs.fn] at h0
  have h1 := (IntOp.andi_eq_one.mp h0).1
  have h2 := Host.reduce_andi_all _ _ _ _ _ h1 i
  exact real_of_abs_lt_inf (x i) h2

end Cert.TernaryLinear

end
-- ==== Proof.KernelRun.lean ====
/-
  The kernel's run, posted at the specification.

  Under the precondition the activations are real numbers, so the region's output array is the padded product
  (Blocks), of the arrays the host prepared (HostSide); the lines after the region slice and reshape it, and read
  index by index that is rows of the activations against rows of the quantized weight (ReadBack). The argument arrays
  end as launched.
-/
import proofs.«173553_j68573447848569_2_alg».proof.Defs
import proofs.«173553_j68573447848569_2_alg».proof.Proof.Gen.Pre_finite_inputs
import proofs.«173553_j68573447848569_2_alg».proof.Proof.Blocks
import proofs.«173553_j68573447848569_2_alg».proof.Proof.HostSide
import proofs.«173553_j68573447848569_2_alg».proof.Proof.ReadBack
import proofs.«173553_j68573447848569_2_alg».proof.Proof.Finite

noncomputable section

namespace Cert.TernaryLinear

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The program's result buffer after the run, as a function of the argument arrays, when the activations are real. -/
theorem kernel_result (c : Dev nD)
    (hfin : ∀ i, ∃ r : ℝ, ((m ((c : Thread nD τ).loc main_arg0) : S4x2048x4096.Idx → EReal) i) = (r : EReal)) :
    Pipeline.afterTail₀ cfgs (dats m) 0 (V0 m) [hostOps1] c main_v0
      = rowsByRows (m ((c : Thread nD τ).loc main_arg0))
          (Cert.ReferenceIdeal.Read.val_main_v11 (F := Ideal) (m ((c : Thread nD τ).loc main_arg1))) := by
  have hX : ∀ i, ∃ r : ℝ, ((V m c main_call0_v14 : S8192x4096.Idx → EReal) i) = (r : EReal) := fun i => by
    rw [found_x]; unfold shapeCast; exact hfin _
  rw [tail_eq, region_result m c hX, found_x, found_w]
  exact read_back _ _ _ _ _ _ _ _ _

/-- Under the precondition every weakly fair execution of the idealized kernel terminates with its result at rows of the
    activations against rows of the quantized weight, and the arguments unchanged. -/
theorem kernel_run [Cert.Pre_finite_inputs.Facts] (hpre : Cert.Pre_KernelIdeal m) :
    θ_run defs (onTc (τ := τ) (main (F := Ideal))) ⟨m, fun _ => 0, ρ⟩ (fun r => ∀ c : Dev nD,
      r.2.mem ((c.tc : Thread nD τ).loc main_v0)
          = rowsByRows (m ((c.tc : Thread nD τ).loc main_arg0))
              (Cert.ReferenceIdeal.Read.val_main_v11 (F := Ideal) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v0 (Pipeline.mem_restRefs_of main_v0 (by decide) (by decide))).trans
        (kernel_result m c (fun i => real_of_pre _ _ (hpre c) i)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.TernaryLinear

end
-- ==== Proof.RefSide.lean ====
/-
  The reference's result is the specification: its one `dot_general` of the activations with the quantized weight,
  contracting the last axis of both, read at `(b, s, o)`, is `∑ₖ x (b, s, k) * W (o, k)`. The quantized weight is the
  reference's own stage `val_main_v11` of the raw weight; it is never opened.
-/
import proofs.«173553_j68573447848569_2_alg».proof.Proof.Gen.ReferenceIdeal.Read
import proofs.«173553_j68573447848569_2_alg».proof.Proof.Spec

noncomputable section

open scoped BigOperators

namespace Cert.TernaryLinear

open Cert.ReferenceIdeal Cert.ReferenceIdeal.Read Idealize.ShloMosaic Idealize.ShloMosaic.ValueIdx

/-- The reference's last stage is rows of the activations against rows of the quantized weight. -/
theorem reference_eq (x : (⟨S4x2048x4096, .f32⟩ : BufTy).Contents (Elt Ideal)) (w : (⟨S11008x4096, .f32⟩ : BufTy).Contents (Elt Ideal)) :
    val_main_v12 (F := Ideal) x w = rowsByRows x (val_main_v11 (F := Ideal) w) := by
  funext i
  rw [val_main_v12_apply]
  unfold rowsByRows
  refine Finset.sum_congr rfl fun k _ => ?_
  have el : lidx_main_v12 i k = ix3 (i 0) (i 1) k := funext fun a => Fin.ext (by
    match a with
    | ⟨0, _⟩ => rfl
    | ⟨1, _⟩ => rfl
    | ⟨2, _⟩ => rfl)
  have er : ridx_main_v12 i k = ix2 (i 2) k := funext fun a => Fin.ext (by
    match a with
    | ⟨0, _⟩ => rfl
    | ⟨1, _⟩ => rfl)
  rw [el, er]
  rfl

end Cert.TernaryLinear

end
-- ==== Proof.lean ====
/-
  The ternary linear layer: a tiled Pallas matrix product against one einsum.

  Both programs quantize the weight by the same chain of host operations with the same constants (mean of absolute
  values, a guarded division, a clip to `[-1, 1]`, a rounding, a guard): the quantized weight `W` is one function of the
  raw weight on both sides and is never opened. The reference is one `dot_general`: `∑ₖ x (b, s, k) * W (o, k)`.

  The kernel pads `W` with zero rows to a multiple of its tile, views the activations as a matrix of 8192 rows, and on
  an 11 × 16 grid writes, per tile, `x · Wᵀ + (x - x) · Wᵀ` — the second product is the low half of a split of `x` into
  two narrow floats, and at the ideal values, where a change of float format is the identity, the split's low half is
  `x - x`. It then drops the padded columns and restores the leading axes.

  The two agree because a REAL number minus itself is zero and zero times any extended real is zero: the precondition
  (every input finite) makes the activations real, the second product vanishes, the tiles assemble into the whole
  padded product, and the columns that survive the slice only ever meet unpadded rows of `W`.

  Modules: Spec (the specification and the law), Body (the tile at an index), Blocks (tiles to the array), HostSide
  (the arrays the region finds, and the lines after it), ReadBack (the result index by index), Finite (the
  precondition read back), KernelRun (the kernel's run at the specification), RefSide (the reference is the
  specification).
-/
import proofs.«173553_j68573447848569_2_alg».proof.Defs
import proofs.«173553_j68573447848569_2_alg».proof.Proof.Gen.Kernel
import proofs.«173553_j68573447848569_2_alg».proof.Proof.Gen.Kernel.Skeleton
import proofs.«173553_j68573447848569_2_alg».proof.Proof.Gen.Kernel.Launch
import proofs.«173553_j68573447848569_2_alg».proof.Proof.Gen.Kernel.Points
import proofs.«173553_j68573447848569_2_alg».proof.Proof.Gen.Kernel.Frame
import proofs.«173553_j68573447848569_2_alg».proof.Proof.Gen.KernelIdeal
import proofs.«173553_j68573447848569_2_alg».proof.Proof.Gen.KernelIdeal.Skeleton
import proofs.«173553_j68573447848569_2_alg».proof.Proof.Gen.KernelIdeal.Launch
import proofs.«173553_j68573447848569_2_alg».proof.Proof.Gen.KernelIdeal.Points
import proofs.«173553_j68573447848569_2_alg».proof.Proof.Gen.KernelIdeal.Frame
import proofs.«173553_j68573447848569_2_alg».proof.Proof.Gen.ReferenceIdeal
import proofs.«173553_j68573447848569_2_alg».proof.Proof.Gen.ReferenceIdeal.Run
import proofs.«173553_j68573447848569_2_alg».proof.Proof.Gen.ReferenceIdeal.Read
import proofs.«173553_j68573447848569_2_alg».proof.Proof.Gen.Pre_finite_inputs
import proofs.«173553_j68573447848569_2_alg».proof.Proof.KernelRun
import proofs.«173553_j68573447848569_2_alg».proof.Proof.RefSide
import Idealize.ShloMosaic.Adequacy
import Idealize.ShloMosaic.Init

noncomputable section

namespace Cert.Proof

open Idealize.ShloMosaic Idealize.SL.Sem

/-- The word-level kernel runs and keeps its arguments: its generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is host operations only: its frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite between the word-level kernel and its idealized form: narrowing the activations' tile to bf16 and widening it back is the identity
    at the ideal values, and the rounding through bf16 at the words. -/
theorem preserves : Cert.preserves_Kernel_KernelIdeal :=
  IdealRules.truncf_extf.statement Cert.KernelIdeal.S512x4096 .f32 .bf16

/-- Both idealized programs end at rows of the activations against rows of the quantized weight. -/
theorem algebraic : Cert.algebraic_KernelIdeal_ReferenceIdeal := by
  intro m ρ m' ρ' hpre hagree
  refine ⟨fun c => Cert.TernaryLinear.rowsByRows
      (m ((c.tc : Thread Cert.KernelIdeal.nD Cert.KernelIdeal.τ).loc Cert.KernelIdeal.main_arg0))
      (Cert.ReferenceIdeal.Read.val_main_v11 (F := Ideal)
        (m ((c.tc : Thread Cert.KernelIdeal.nD Cert.KernelIdeal.τ).loc Cert.KernelIdeal.main_arg1))),
    Cert.TernaryLinear.kernel_run m ρ hpre, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v12_eq _ _).trans (Cert.TernaryLinear.reference_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
